-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S10000x64 : Shape := ⟨2, ![10000, 64]⟩

abbrev nBuf : Space → Nat
  | .hbm => 47
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .bf16⟩
  | .hbm, ⟨28, _⟩ => ⟨S1x64, .f32⟩
  | .hbm, ⟨29, _⟩ => ⟨S50000x64, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .bf16⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x64, .bf16⟩
  | .hbm, ⟨45, _⟩ => ⟨S1x64, .f32⟩
  | .hbm, ⟨46, _⟩ => ⟨S50000x64, .f32⟩
  | .local _ .vmem, ⟨0, _⟩ => ⟨S10000x64, .bf16⟩
  | .local _ .vmem, ⟨1, _⟩ => ⟨S10000x64, .bf16⟩
  | .local _ .vmem, ⟨2, _⟩ => ⟨S10000x64, .bf16⟩
  | .local _ .vmem, ⟨3, _⟩ => ⟨S10000x64, .bf16⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .bf16⟩
  | .local _ .vmem, ⟨8, _⟩ => ⟨S10000x64, .bf16⟩
  | .local _ .vmem, ⟨9, _⟩ => ⟨S10000x64, .bf16⟩
  | .local _ .vmem, ⟨10, _⟩ => ⟨S10000x64, .bf16⟩
  | .local _ .vmem, ⟨11, _⟩ => ⟨S10000x64, .bf16⟩
  | .local _ .vmem, ⟨12, _⟩ => ⟨S10000x64, .bf16⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .bf16 = 32 ∨ (Rect.block (s := S50000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .bf16 = 32 ∨ (Rect.block (s := S50000x64) S10000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .bf16 = 32 ∨ (Rect.block (s := S50000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .bf16 = 32 ∨ (Rect.block (s := S50000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v4) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  Two graph-convolution layers, stated entry by entry over the extended reals.

  A layer sends node features `x` and aggregated neighbour features `a` (both 50000 × 64) to
  `x · W_root + a · W_nbr + b`: at node `p` and output feature `q` the sum over `k < 64` of `x (p, k) · W_root (k, q)`,
  plus the sum over `k` of `a (p, k) · W_nbr (k, q)`, plus `b q`, added in that order.  The network is the first layer
  followed by `max · 0`, then the second layer applied to that hidden array and to its own aggregate.  The aggregation
  (gather the rows named by the source ends of the edges, add them into the rows named by the target ends) is a
  parameter here: both programs compute it by the same two host operations, and nothing below looks inside it.
-/
import Idealize.ShloMosaic.Lib.ValueIdx
import Idealize.ShloMosaic.PureOps.Ideal

noncomputable section
open scoped BigOperators
namespace Cert.GraphConv
open Idealize.ShloMosaic Idealize.ShloMosaic.ValueIdx

/-- Node features: 50000 nodes, 64 features each. -/
abbrev Nodes : Shape := ⟨2, ![50000, 64]⟩
/-- A layer's weight matrix. -/
abbrev Weights : Shape := ⟨2, ![64, 64]⟩
/-- A layer's bias. -/
abbrev Bias : Shape := ⟨1, ![64]⟩

/-- One entry of a layer: root term, neighbour term, bias, added in this order. -/
def convAt (xrow arow : Fin 64 → EReal) (wr wn : Weights.Idx → EReal) (bq : EReal) (q : Fin 64) : EReal :=
  (∑ k : Fin 64, xrow k * wr (ix2 k q) + ∑ k : Fin 64, arow k * wn (ix2 k q)) + bq

/-- A layer on whole arrays: entry `(p, q)` reads row `p` of the features and of the aggregate. -/
def conv (x a : Nodes.Idx → EReal) (wr wn : Weights.Idx → EReal) (b : Bias.Idx → EReal) : Nodes.Idx → EReal :=
  fun i => convAt (fun k => x (ix2 (i 0) k)) (fun k => a (ix2 (i 0) k)) wr wn (b (ix1 (i 1))) (i 1)

/-- The rectifier, entry by entry. -/
def relu (y : Nodes.Idx → EReal) : Nodes.Idx → EReal := fun i => max (y i) 0

/-- The two-layer network over an aggregation `agg`. -/
def net (agg : (Nodes.Idx → EReal) → Nodes.Idx → EReal) (x : Nodes.Idx → EReal)
    (w1r w1n : Weights.Idx → EReal) (b1 : Bias.Idx → EReal) (w2r w2n : Weights.Idx → EReal) (b2 : Bias.Idx → EReal) :
    Nodes.Idx → EReal :=
  conv (relu (conv x (agg x) w1r w1n b1)) (agg (relu (conv x (agg x) w1r w1n b1))) w2r w2n b2

end Cert.GraphConv
end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.KernelBlock.lean ====
/-
  What one grid step of each kernel computes, entry by entry.

  A step holds 10000 rows of the node features and of the aggregate, the two whole weight matrices and the bias as a
  1 × 64 row.  Its result at row `p`, feature `q` is the sum over `k < 64` of `x (p, k) · W_root (k, q)` (a matrix product into
  a zero accumulator, the weights' change of float format being the identity on extended reals), plus the same sum for
  the aggregate and `W_nbr`, plus the bias row's entry `(0, q)` — the layer's entry of the specification on these rows.
  The first kernel then takes `max · 0`; the second stores the sum as it is.
-/
import proofs.«124685_j13529146982743_2_alg».proof.Proof.Gen.KernelIdeal.Skeleton
import proofs.«124685_j13529146982743_2_alg».proof.Proof.Spec
import proofs.«124685_j13529146982743_2_alg».proof.Proof.LibPlainDot
import Idealize.ShloMosaic.Lib.Pipeline.Value
import Idealize.ShloMosaic.Lib.ValueIdx
import Idealize.ShloMosaic.PureOps.Ideal.Laws

noncomputable section
open scoped BigOperators
namespace Cert.KernelIdeal.BlockValue
open Cert.KernelIdeal Cert.KernelIdeal.Gen Cert.GraphConv Cert.PlainDot
open Idealize.ShloMosaic Idealize.ShloMosaic.TcCoe Idealize.ShloMosaic.ValueIdx

/-- The step's two products contract the operands' shared axis of length 64 and keep the other two. -/
theorem plain : IsPlain (A := 10000) (K := 64) (B := 64) dot_S10000x64_S64x64_S10000x64_1_0_0_1_n_n :=
  ⟨rfl, rfl, rfl, rfl, rfl, rfl⟩

/-- The bias row broadcast over the 10000 rows reads, at `(p, q)`, the row's entry `(0, q)`. -/
theorem bias_at (x4 : Vec Ideal S1x64 .f32) (p : Fin 10000) (q : Fin 64) :
    broadcastTo S10000x64 (shapeCast S1x64 x4 shapeCasts_S1x64_S1x64) broadcasts_S1x64_S10000x64 (ix2 p q) = x4 (ix2 0 q) := by
  rw [shapeCast_self]
  exact broadcastTo_apply x4 broadcasts_S1x64_S10000x64 (ix2 p q) (ix2 0 q) (fun a => by
    match a with
    | ⟨0, _⟩ => rfl
    | ⟨1, _⟩ => rfl)

/-- The layer's entry on the step's rows, before any rectifier. -/
theorem sum_at (x0 x1 : FVec Ideal S10000x64 .bf16) (x2 x3 : FVec Ideal S64x64 .bf16) (x4 : FVec Ideal S1x64 .f32)
    (p : Fin 10000) (q : Fin 64) :
    (FloatOps.matmul (F := Ideal) dot_S10000x64_S64x64_S10000x64_1_0_0_1_n_n none x0 x2 (constant (F := Ideal) S10000x64 .f32 0x00000000#32) (ix2 p q)
      + FloatOps.matmul (F := Ideal) dot_S10000x64_S64x64_S10000x64_1_0_0_1_n_n none x1 x3 (constant (F := Ideal) S10000x64 .f32 0x00000000#32) (ix2 p q))
      + broadcastTo S10000x64 (shapeCast S1x64 x4 shapeCasts_S1x64_S1x64) broadcasts_S1x64_S10000x64 (ix2 p q)
      = convAt (fun k => x0 (ix2 p k)) (fun k => x1 (ix2 p k)) x2 x3 (x4 (ix2 0 q)) q := by
  rw [matmul_zero_plain _ plain, matmul_zero_plain _ plain, bias_at]
  rfl

/-- The second kernel's step. -/
theorem pay_out (x0 x1 : Vec Ideal S10000x64 .bf16) (x2 x3 : Vec Ideal S64x64 .f32) (x4 : Vec Ideal S1x64 .f32)
    (p : Fin 10000) (q : Fin 64) :
    k1_pay1 (F := Ideal) x0 x1 x2 x3 x4 (ix2 p q) = convAt (fun k => x0 (ix2 p k)) (fun k => x1 (ix2 p k)) x2 x3 (x4 (ix2 0 q)) q := by
  unfold k1_pay1
  rw [shapeCast_self x0, shapeCast_self x1]
  exact sum_at x0 x1 x2 x3 x4 p q

/-- The first kernel's step: the same sum, rectified (the closing change of float format is the identity). -/
theorem pay_hidden (x0 x1 : Vec Ideal S10000x64 .bf16) (x2 x3 : Vec Ideal S64x64 .f32) (x4 : Vec Ideal S1x64 .f32)
    (p : Fin 10000) (q : Fin 64) :
    k0_pay1 (F := Ideal) x0 x1 x2 x3 x4 (ix2 p q)
      = max (convAt (fun k => x0 (ix2 p k)) (fun k => x1 (ix2 p k)) x2 x3 (x4 (ix2 0 q)) q) 0 := by
  unfold k0_pay1
  rw [shapeCast_self x0, shapeCast_self x1]
  refine Eq.trans (b := max (convAt (fun k => x0 (ix2 p k)) (fun k => x1 (ix2 p k)) x2 x3 (x4 (ix2 0 q)) q) (Ideal.ofBits .f32 0x00000000#32)) ?_ ?_
  · exact congrArg (fun v => max v (Ideal.ofBits .f32 0x00000000#32)) (sum_at x0 x1 x2 x3 x4 p q)
  · rw [Ideal.ofBits_zero_f32]

end Cert.KernelIdeal.BlockValue
end
-- ==== Proof.KernelRegion.lean ====
/-
  Each kernel region's output array as one function of the arrays the region finds.

  A region runs five grid points; point `t` holds rows `10000·t … 10000·t + 9999` of the node features and of the aggregate,
  the whole weight matrices and the bias row, and writes back the same rows of the output.  So entry `(r, q)` of the
  output array is the layer's entry computed from row `r` of the two input arrays: the five blocks are restrictions of one
  whole-array function (`conv` of the specification, rectified in the first region), and they tile the 50000 rows.
-/
import proofs.«124685_j13529146982743_2_alg».proof.Proof.Gen.KernelIdeal.Frame
import proofs.«124685_j13529146982743_2_alg».proof.Proof.KernelBlock
import Idealize.ShloMosaic.Lib.Pipeline.Value

set_option maxRecDepth 16384

noncomputable section
open scoped BigOperators
namespace Cert.KernelIdeal.RegionValue
open Cert.KernelIdeal Cert.KernelIdeal.Gen Cert.KernelIdeal.BlockValue Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its five grid points: the row blocks of the features, of the
    aggregate and of the output move together, one block of 10000 rows per point; everything else stays at block 0. -/
theorem idx0 : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 4 :=
  (by decide +kernel : ∀ t : Fin grid0.N, _)

/-- Every block of 10000 rows is some point's. -/
theorem onto0 : ∀ q0 : Fin 5, ∃ t : Fin cfg0.N, win0_5.index t = ![q0.val, 0] :=
  (by decide +kernel : ∀ q0 : Fin 5, ∃ t : Fin grid0.N, win0_5.index t = ![q0.val, 0])

/-- What region 0's output array holds in the end, as a function of the arrays the region finds. -/
def out0 (c : Dev nD) : Nodes.Idx → EReal :=
  relu (conv (V c main_v4) (V c main_v16) (V c main_arg2) (V c main_arg3) (fun j => V c main_v17 (ix2 0 (j 0))))

/-- A features entry of point `t`'s block is the array's entry in the block's row range. -/
theorem rdX0 (c : Dev nD) (t : Fin cfg0.N) (p : Fin 10000) (k : Fin 64) (R : Fin 50000)
    (hR : R.val = win0_5.index t (0 : Fin 2) * 10000 + p.val) :
    iblk0 V c 0 t (ix2 p k) = V c main_v4 (ix2 R k) := by
  obtain ⟨e0, e1, -⟩ := idx0 t
  show V c main_v4 (((cfg0.win 0).blk t).view.emb (ix2 p k)) = _
  refine congrArg (V c main_v4) (funext fun a => Fin.ext ?_)
  match a with
  | ⟨0, _⟩ => show win0_0.index t (0 : Fin 2) * 10000 + 1 * p.val = R.val; omega
  | ⟨1, _⟩ => show win0_0.index t (1 : Fin 2) * 64 + 1 * k.val = k.val; omega

/-- The same for the aggregate. -/
theorem rdA0 (c : Dev nD) (t : Fin cfg0.N) (p : Fin 10000) (k : Fin 64) (R : Fin 50000)
    (hR : R.val = win0_5.index t (0 : Fin 2) * 10000 + p.val) :
    iblk0 V c 1 t (ix2 p k) = V c main_v16 (ix2 R k) := by
  obtain ⟨-, -, e2, e3, -⟩ := idx0 t
  show V c main_v16 (((cfg0.win 1).blk t).view.emb (ix2 p k)) = _
  refine congrArg (V c main_v16) (funext fun a => Fin.ext ?_)
  match a with
  | ⟨0, _⟩ => show win0_1.index t (0 : Fin 2) * 10000 + 1 * p.val = R.val; omega
  | ⟨1, _⟩ => show win0_1.index t (1 : Fin 2) * 64 + 1 * k.val = k.val; omega

/-- Each weight matrix is fetched whole at every point. -/
theorem rdWR0 (c : Dev nD) (t : Fin cfg0.N) : iblk0 V c 2 t = V c main_arg2 := by
  obtain ⟨-, -, -, -, e4, e5, -⟩ := idx0 t
  funext z
  show V c main_arg2 (((cfg0.win 2).blk t).view.emb z) = V c main_arg2 z
  refine congrArg (V c main_arg2) (funext fun a => Fin.ext ?_)
  match a with
  | ⟨0, _⟩ => show win0_2.index t (0 : Fin 2) * 64 + 1 * (z 0).val = (z 0).val; omega
  | ⟨1, _⟩ => show win0_2.index t (1 : Fin 2) * 64 + 1 * (z 1).val = (z 1).val; omega
theorem rdWN0 (c : Dev nD) (t : Fin cfg0.N) : iblk0 V c 3 t = V c main_arg3 := by
  obtain ⟨-, -, -, -, -, -, e6, e7, -⟩ := idx0 t
  funext z
  show V c main_arg3 (((cfg0.win 3).blk t).view.emb z) = V c main_arg3 z
  refine congrArg (V c main_arg3) (funext fun a => Fin.ext ?_)
  match a with
  | ⟨0, _⟩ => show win0_3.index t (0 : Fin 2) * 64 + 1 * (z 0).val = (z 0).val; omega
  | ⟨1, _⟩ => show win0_3.index t (1 : Fin 2) * 64 + 1 * (z 1).val = (z 1).val; omega
/-- So is the bias row. -/
theorem rdB0 (c : Dev nD) (t : Fin cfg0.N) : iblk0 V c 4 t = V c main_v17 := by
  obtain ⟨-, -, -, -, -, -, -, -, e8, e9, -⟩ := idx0 t
  funext z
  show V c main_v17 (((cfg0.win 4).blk t).view.emb z) = V c main_v17 z
  refine congrArg (V c main_v17) (funext fun a => Fin.ext ?_)
  match a with
  | ⟨0, _⟩ => show win0_4.index t (0 : Fin 2) * 1 + 1 * (z 0).val = (z 0).val; omega
  | ⟨1, _⟩ => show win0_4.index t (1 : Fin 2) * 64 + 1 * (z 1).val = (z 1).val; omega

/-- What point `t` writes back is block `t` of `out0`. -/
theorem flushed0 (c : Dev nD) (t : Fin cfg0.N) :
    (dat0 V c).flushed 5 t = ((cfg0.win 5).blk t).view.read (Elt Ideal) (out0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, -, -, e10, e11⟩ := idx0 t
  obtain ⟨R, hR⟩ : ∃ R : Fin 50000, R.val = win0_5.index t (0 : Fin 2) * 10000 + p.val :=
    ⟨⟨win0_5.index t (0 : Fin 2) * 10000 + p.val, by have := p.isLt; omega⟩, rfl⟩
  have hemb : ((cfg0.win 5).blk t).view.emb (ix2 p q) = ix2 R q := funext fun a => Fin.ext (by
    match a with
    | ⟨0, _⟩ => show win0_5.index t (0 : Fin 2) * 10000 + 1 * p.val = R.val; omega
    | ⟨1, _⟩ => show win0_5.index t (1 : Fin 2) * 64 + 1 * q.val = q.val; omega)
  refine (pay_hidden (iblk0 V c 0 t) (iblk0 V c 1 t) (iblk0 V c 2 t) (iblk0 V c 3 t) (iblk0 V c 4 t) p q).trans ?_
  show _ = out0 V c (((cfg0.win 5).blk t).view.emb (ix2 p q))
  rw [hemb, rdWR0 V c t, rdWN0 V c t, rdB0 V c t]
  simp only [rdX0 V c t p _ R hR, rdA0 V c t p _ R hR]
  rfl

/-- An index of the output array is in point `t`'s block iff each coordinate is in the block's range. -/
theorem mem_blk0 (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v18).slice (win0_5.rect t)).set ↔ _
  rw [View.set_slice_whole, Rect.mem_set_unit]
  exact Iff.rfl

/-- The five row blocks cover the output array: row `r` is in block `r / 10000`. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- Region 0's output array after its five points. -/
theorem final0 (c : Dev nD) : (dat0 V c).arrAt 5 cfg0.N = out0 V c :=
  (dat0 V c).arrAt_eq_of_cover 5 (out0 V c) (fun t _ => flushed0 V c t) (cover0)

/-! ## Region 1 -/

/-- The printed index maps of region 1, decided over its five grid points: the row blocks of the features, of the
    aggregate and of the output move together, one block of 10000 rows per point; everything else stays at block 0. -/
theorem idx1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 4 :=
  (by decide +kernel : ∀ t : Fin grid1.N, _)

/-- Every block of 10000 rows is some point's. -/
theorem onto1 : ∀ q0 : Fin 5, ∃ t : Fin cfg1.N, win1_5.index t = ![q0.val, 0] :=
  (by decide +kernel : ∀ q0 : Fin 5, ∃ t : Fin grid1.N, win1_5.index t = ![q0.val, 0])

/-- What region 1's output array holds in the end, as a function of the arrays the region finds. -/
def out1 (c : Dev nD) : Nodes.Idx → EReal :=
  conv (V c main_v18) (V c main_v30) (V c main_arg5) (V c main_arg6) (fun j => V c main_v31 (ix2 0 (j 0)))

/-- A features entry of point `t`'s block is the array's entry in the block's row range. -/
theorem rdX1 (c : Dev nD) (t : Fin cfg1.N) (p : Fin 10000) (k : Fin 64) (R : Fin 50000)
    (hR : R.val = win1_5.index t (0 : Fin 2) * 10000 + p.val) :
    iblk1 V c 0 t (ix2 p k) = V c main_v18 (ix2 R k) := by
  obtain ⟨e0, e1, -⟩ := idx1 t
  show V c main_v18 (((cfg1.win 0).blk t).view.emb (ix2 p k)) = _
  refine congrArg (V c main_v18) (funext fun a => Fin.ext ?_)
  match a with
  | ⟨0, _⟩ => show win1_0.index t (0 : Fin 2) * 10000 + 1 * p.val = R.val; omega
  | ⟨1, _⟩ => show win1_0.index t (1 : Fin 2) * 64 + 1 * k.val = k.val; omega

/-- The same for the aggregate. -/
theorem rdA1 (c : Dev nD) (t : Fin cfg1.N) (p : Fin 10000) (k : Fin 64) (R : Fin 50000)
    (hR : R.val = win1_5.index t (0 : Fin 2) * 10000 + p.val) :
    iblk1 V c 1 t (ix2 p k) = V c main_v30 (ix2 R k) := by
  obtain ⟨-, -, e2, e3, -⟩ := idx1 t
  show V c main_v30 (((cfg1.win 1).blk t).view.emb (ix2 p k)) = _
  refine congrArg (V c main_v30) (funext fun a => Fin.ext ?_)
  match a with
  | ⟨0, _⟩ => show win1_1.index t (0 : Fin 2) * 10000 + 1 * p.val = R.val; omega
  | ⟨1, _⟩ => show win1_1.index t (1 : Fin 2) * 64 + 1 * k.val = k.val; omega

/-- Each weight matrix is fetched whole at every point. -/
theorem rdWR1 (c : Dev nD) (t : Fin cfg1.N) : iblk1 V c 2 t = V c main_arg5 := by
  obtain ⟨-, -, -, -, e4, e5, -⟩ := idx1 t
  funext z
  show V c main_arg5 (((cfg1.win 2).blk t).view.emb z) = V c main_arg5 z
  refine congrArg (V c main_arg5) (funext fun a => Fin.ext ?_)
  match a with
  | ⟨0, _⟩ => show win1_2.index t (0 : Fin 2) * 64 + 1 * (z 0).val = (z 0).val; omega
  | ⟨1, _⟩ => show win1_2.index t (1 : Fin 2) * 64 + 1 * (z 1).val = (z 1).val; omega
theorem rdWN1 (c : Dev nD) (t : Fin cfg1.N) : iblk1 V c 3 t = V c main_arg6 := by
  obtain ⟨-, -, -, -, -, -, e6, e7, -⟩ := idx1 t
  funext z
  show V c main_arg6 (((cfg1.win 3).blk t).view.emb z) = V c main_arg6 z
  refine congrArg (V c main_arg6) (funext fun a => Fin.ext ?_)
  match a with
  | ⟨0, _⟩ => show win1_3.index t (0 : Fin 2) * 64 + 1 * (z 0).val = (z 0).val; omega
  | ⟨1, _⟩ => show win1_3.index t (1 : Fin 2) * 64 + 1 * (z 1).val = (z 1).val; omega
/-- So is the bias row. -/
theorem rdB1 (c : Dev nD) (t : Fin cfg1.N) : iblk1 V c 4 t = V c main_v31 := by
  obtain ⟨-, -, -, -, -, -, -, -, e8, e9, -⟩ := idx1 t
  funext z
  show V c main_v31 (((cfg1.win 4).blk t).view.emb z) = V c main_v31 z
  refine congrArg (V c main_v31) (funext fun a => Fin.ext ?_)
  match a with
  | ⟨0, _⟩ => show win1_4.index t (0 : Fin 2) * 1 + 1 * (z 0).val = (z 0).val; omega
  | ⟨1, _⟩ => show win1_4.index t (1 : Fin 2) * 64 + 1 * (z 1).val = (z 1).val; omega

/-- What point `t` writes back is block `t` of `out1`. -/
theorem flushed1 (c : Dev nD) (t : Fin cfg1.N) :
    (dat1 V c).flushed 5 t = ((cfg1.win 5).blk t).view.read (Elt Ideal) (out1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, -, -, e10, e11⟩ := idx1 t
  obtain ⟨R, hR⟩ : ∃ R : Fin 50000, R.val = win1_5.index t (0 : Fin 2) * 10000 + p.val :=
    ⟨⟨win1_5.index t (0 : Fin 2) * 10000 + p.val, by have := p.isLt; omega⟩, rfl⟩
  have hemb : ((cfg1.win 5).blk t).view.emb (ix2 p q) = ix2 R q := funext fun a => Fin.ext (by
    match a with
    | ⟨0, _⟩ => show win1_5.index t (0 : Fin 2) * 10000 + 1 * p.val = R.val; omega
    | ⟨1, _⟩ => show win1_5.index t (1 : Fin 2) * 64 + 1 * q.val = q.val; omega)
  refine (pay_out (iblk1 V c 0 t) (iblk1 V c 1 t) (iblk1 V c 2 t) (iblk1 V c 3 t) (iblk1 V c 4 t) p q).trans ?_
  show _ = out1 V c (((cfg1.win 5).blk t).view.emb (ix2 p q))
  rw [hemb, rdWR1 V c t, rdWN1 V c t, rdB1 V c t]
  simp only [rdX1 V c t p _ R hR, rdA1 V c t p _ R hR]
  rfl

/-- An index of the output array is in point `t`'s block iff each coordinate is in the block's range. -/
theorem mem_blk1 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v32).slice (win1_5.rect t)).set ↔ _
  rw [View.set_slice_whole, Rect.mem_set_unit]
  exact Iff.rfl

/-- The five row blocks cover the output array: row `r` is in block `r / 10000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- Region 1's output array after its five points. -/
theorem final1 (c : Dev nD) : (dat1 V c).arrAt 5 cfg1.N = out1 V c :=
  (dat1 V c).arrAt_eq_of_cover 5 (out1 V c) (fun t _ => flushed1 V c t) (cover1)

end Cert.KernelIdeal.RegionValue
end
-- ==== Proof.KernelHost.lean ====
/-
  The arrays each kernel region finds, as the host operations before it leave them.

  Before the first region the host takes the source ends (row 0 of the edge list) and the target ends (row 1), turns a
  negative source end `s` into `s + 50000`, gathers the rows of the node features named by the source ends and adds
  them into the rows of an all-zero array named by the target ends: the aggregate.  The features and the aggregate pass
  through changes of float format, which are the identity on extended reals, and the bias becomes a 1 × 64 row.  Between
  the regions the host does the same with the first region's output in place of the features.
-/
import proofs.«124685_j13529146982743_2_alg».proof.Proof.Gen.KernelIdeal.Frame
import Idealize.ShloMosaic.Lib.StableHlo.Run
import Idealize.ShloMosaic.PureOps.Ideal

set_option maxRecDepth 16384

noncomputable section
namespace Cert.KernelIdeal.HostValue
open Cert.KernelIdeal Cert.KernelIdeal.Gen
open Idealize.ShloMosaic Idealize.ShloMosaic.TcCoe Idealize.SL.Sem Idealize.ShloMosaic.StableHlo

/-- The edges' source ends. -/
def srcEnds (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
/-- The edges' target ends. -/
def dstEnds (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The aggregate of `x` over source ends `v1` and target ends `v3`, as the host computes it. -/
def aggOf (v1 v3 : (⟨S800000, .i32⟩ : BufTy).Contents (Elt Ideal)) (x : (⟨S50000x64, .bf16⟩ : BufTy).Contents (Elt Ideal)) : (⟨S50000x64, .bf16⟩ : BufTy).Contents (Elt Ideal) :=
  truncf .bf16 (Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 v3)
    (extf .f32 (Host.gather gather_S50000x64_S800000x1_S800000x64_1_0_n_n_0_1_164 x
      (broadcastInDim S800000x1 ![0] bcast_S800000_S800000x1_0
        (select (cmpi .slt v1 (broadcastInDim S800000 ![] bcast_S_S800000 (constantI S_ 32 0#32)))
          (addi v1 (broadcastInDim S800000 ![] bcast_S_S800000 (constantI S_ 32 50000#32))) v1))) bitsLt_bf16_f32)) bitsLt_bf16_f32

variable (m : (ℓ : Loc nD τ sig) → Buf (Elt Ideal) ℓ) (ρ : Dev nD → PrngReg)

/-! ## What the first region finds -/

theorem W1_v1 (c : Dev nD) :
    (W1 m ρ c main_v1 : (⟨S800000, .i32⟩ : BufTy).Contents (Elt Ideal)) = srcEnds (m ((c : Thread nD τ).loc main_arg1)) := by
  show StableHlo.after hostOps0 (W0 m ρ c) (Proc.devRef .tc main_v1) = _
  dsimp only [hostOps0]
  after_results_simp <;> rfl

theorem W1_v3 (c : Dev nD) :
    (W1 m ρ c main_v3 : (⟨S800000, .i32⟩ : BufTy).Contents (Elt Ideal)) = dstEnds (m ((c : Thread nD τ).loc main_arg1)) := by
  show StableHlo.after hostOps0 (W0 m ρ c) (Proc.devRef .tc main_v3) = _
  dsimp only [hostOps0]
  after_results_simp <;> rfl

theorem W1_v4 (c : Dev nD) :
    (W1 m ρ c main_v4 : (⟨S50000x64, .bf16⟩ : BufTy).Contents (Elt Ideal)) = m ((c : Thread nD τ).loc main_arg0) := by
  show StableHlo.after hostOps0 (W0 m ρ c) (Proc.devRef .tc main_v4) = _
  dsimp only [hostOps0]
  after_results_simp <;> rfl

theorem W1_v16 (c : Dev nD) :
    (W1 m ρ c main_v16 : (⟨S50000x64, .bf16⟩ : BufTy).Contents (Elt Ideal)) = aggOf (srcEnds (m ((c : Thread nD τ).loc main_arg1))) (dstEnds (m ((c : Thread nD τ).loc main_arg1))) (m ((c : Thread nD τ).loc main_arg0) : (⟨S50000x64, .bf16⟩ : BufTy).Contents (Elt Ideal)) := by
  show StableHlo.after hostOps0 (W0 m ρ c) (Proc.devRef .tc main_v16) = _
  dsimp only [hostOps0]
  after_results_simp <;> rfl

theorem W1_v17 (c : Dev nD) :
    (W1 m ρ c main_v17 : (⟨S1x64, .f32⟩ : BufTy).Contents (Elt Ideal)) = shapeCast _ (m ((c : Thread nD τ).loc main_arg4)) shapeCasts_S64_S1x64 := by
  show StableHlo.after hostOps0 (W0 m ρ c) (Proc.devRef .tc main_v17) = _
  dsimp only [hostOps0]
  after_results_simp <;> rfl

theorem W1_arg2 (c : Dev nD) :
    (W1 m ρ c main_arg2 : (⟨S64x64, .f32⟩ : BufTy).Contents (Elt Ideal)) = m ((c : Thread nD τ).loc main_arg2) := by
  show StableHlo.after hostOps0 (W0 m ρ c) (Proc.devRef .tc main_arg2) = _
  dsimp only [hostOps0]
  after_results_simp <;> rfl

theorem W1_arg3 (c : Dev nD) :
    (W1 m ρ c main_arg3 : (⟨S64x64, .f32⟩ : BufTy).Contents (Elt Ideal)) = m ((c : Thread nD τ).loc main_arg3) := by
  show StableHlo.after hostOps0 (W0 m ρ c) (Proc.devRef .tc main_arg3) = _
  dsimp only [hostOps0]
  after_results_simp <;> rfl

theorem W1_arg5 (c : Dev nD) :
    (W1 m ρ c main_arg5 : (⟨S64x64, .f32⟩ : BufTy).Contents (Elt Ideal)) = m ((c : Thread nD τ).loc main_arg5) := by
  show StableHlo.after hostOps0 (W0 m ρ c) (Proc.devRef .tc main_arg5) = _
  dsimp only [hostOps0]
  after_results_simp <;> rfl

theorem W1_arg6 (c : Dev nD) :
    (W1 m ρ c main_arg6 : (⟨S64x64, .f32⟩ : BufTy).Contents (Elt Ideal)) = m ((c : Thread nD τ).loc main_arg6) := by
  show StableHlo.after hostOps0 (W0 m ρ c) (Proc.devRef .tc main_arg6) = _
  dsimp only [hostOps0]
  after_results_simp <;> rfl

theorem W1_arg7 (c : Dev nD) :
    (W1 m ρ c main_arg7 : (⟨S64, .f32⟩ : BufTy).Contents (Elt Ideal)) = m ((c : Thread nD τ).loc main_arg7) := by
  show StableHlo.after hostOps0 (W0 m ρ c) (Proc.devRef .tc main_arg7) = _
  dsimp only [hostOps0]
  after_results_simp <;> rfl

/-! ## What the second region finds, from what the first region leaves (`W2`) -/

theorem W3_v18 (c : Dev nD) :
    (W3 m ρ c main_v18 : (⟨S50000x64, .bf16⟩ : BufTy).Contents (Elt Ideal)) = W2 m ρ c (Proc.devRef .tc main_v18) := by
  show StableHlo.after hostOps1 (W2 m ρ c) (Proc.devRef .tc main_v18) = _
  dsimp only [hostOps1]
  after_results_simp <;> rfl

theorem W3_v30 (c : Dev nD) :
    (W3 m ρ c main_v30 : (⟨S50000x64, .bf16⟩ : BufTy).Contents (Elt Ideal)) = aggOf (W2 m ρ c (Proc.devRef .tc main_v1)) (W2 m ρ c (Proc.devRef .tc main_v3)) (W2 m ρ c (Proc.devRef .tc main_v18)) := by
  show StableHlo.after hostOps1 (W2 m ρ c) (Proc.devRef .tc main_v30) = _
  dsimp only [hostOps1]
  after_results_simp <;> rfl

theorem W3_v31 (c : Dev nD) :
    (W3 m ρ c main_v31 : (⟨S1x64, .f32⟩ : BufTy).Contents (Elt Ideal)) = shapeCast _ (W2 m ρ c (Proc.devRef .tc main_arg7)) shapeCasts_S64_S1x64 := by
  show StableHlo.after hostOps1 (W2 m ρ c) (Proc.devRef .tc main_v31) = _
  dsimp only [hostOps1]
  after_results_simp <;> rfl

theorem W3_arg5 (c : Dev nD) :
    (W3 m ρ c main_arg5 : (⟨S64x64, .f32⟩ : BufTy).Contents (Elt Ideal)) = W2 m ρ c (Proc.devRef .tc main_arg5) := by
  show StableHlo.after hostOps1 (W2 m ρ c) (Proc.devRef .tc main_arg5) = _
  dsimp only [hostOps1]
  after_results_simp <;> rfl

theorem W3_arg6 (c : Dev nD) :
    (W3 m ρ c main_arg6 : (⟨S64x64, .f32⟩ : BufTy).Contents (Elt Ideal)) = W2 m ρ c (Proc.devRef .tc main_arg6) := by
  show StableHlo.after hostOps1 (W2 m ρ c) (Proc.devRef .tc main_arg6) = _
  dsimp only [hostOps1]
  after_results_simp <;> rfl

end Cert.KernelIdeal.HostValue
end
-- ==== Proof.KernelValue.lean ====
/-
  The kernel program's result array is the two-layer network of the specification.

  The second region's output is the layer `conv` of the arrays it finds: the first region's output (the hidden array), the
  hidden array's aggregate, the second layer's weights and its bias row.  The first region's output is the rectified layer
  of the node features, their aggregate, the first layer's weights and bias row.  A bias `b` reshaped to a 1 × 64 row and
  read at `(0, q)` is `b q`.
-/
import proofs.«124685_j13529146982743_2_alg».proof.Proof.KernelRegion
import proofs.«124685_j13529146982743_2_alg».proof.Proof.KernelHost
import proofs.«124685_j13529146982743_2_alg».proof.Proof.Spec
import Idealize.ShloMosaic.Lib.Pipeline.Value

set_option maxRecDepth 16384

noncomputable section
namespace Cert.KernelIdeal.KernelValue
open Cert.KernelIdeal Cert.KernelIdeal.Gen Cert.KernelIdeal.RegionValue Cert.KernelIdeal.HostValue Cert.GraphConv
open Idealize.ShloMosaic Idealize.ShloMosaic.TcCoe Idealize.ShloMosaic.ValueIdx Idealize.SL.Sem

/-- The kernel program's aggregation over the edge list `e`. -/
def agg (e : (⟨S2x800000, .i32⟩ : BufTy).Contents (Elt Ideal)) (x : Nodes.Idx → EReal) : Nodes.Idx → EReal :=
  aggOf (srcEnds e) (dstEnds e) x

/-- A bias reshaped to a 1 × 64 row, read at `(0, q)`, is the bias at `q`. -/
theorem bias_row (b : (⟨S64, .f32⟩ : BufTy).Contents (Elt Ideal)) :
    (fun j : Bias.Idx => (shapeCast S1x64 b shapeCasts_S64_S1x64 : (⟨S1x64, .f32⟩ : BufTy).Contents (Elt Ideal)) (ix2 0 (j 0))) = b := by
  funext j
  refine (shapeCast_apply b shapeCasts_S64_S1x64 (ix2 0 (j 0)) j ?_).trans rfl
  rewrite [Shape.rowMajor_val_two, Shape.rowMajor_val_one]
  show (j 0).val = 0 * 64 + (j 0).val
  omega

variable (m : (ℓ : Loc nD τ sig) → Buf (Elt Ideal) ℓ) (ρ : Dev nD → PrngReg)

/-- What the first region leaves in its output array: the hidden array. -/
theorem hidden (c : Dev nD) :
    (W2 m ρ c (Proc.devRef .tc main_v18) : Nodes.Idx → EReal)
      = relu (conv (m ((c : Thread nD τ).loc main_arg0)) (agg (m ((c : Thread nD τ).loc main_arg1)) (m ((c : Thread nD τ).loc main_arg0))) (m ((c : Thread nD τ).loc main_arg2)) (m ((c : Thread nD τ).loc main_arg3)) (m ((c : Thread nD τ).loc main_arg4))) := by
  refine ((W2_arr m ρ c 5).trans (final0 (V1 m ρ) c)).trans ?_
  unfold out0
  show relu (conv (W1 m ρ c main_v4) (W1 m ρ c main_v16) (W1 m ρ c main_arg2) (W1 m ρ c main_arg3)
      (fun j => (W1 m ρ c main_v17 : (⟨S1x64, .f32⟩ : BufTy).Contents (Elt Ideal)) (ix2 0 (j 0)))) = _
  rw [W1_v4, W1_v16, W1_arg2, W1_arg3, W1_v17, bias_row]
  rfl

/-- The result array at the end of the run. -/
theorem result (c : Dev nD) :
    (W4 m ρ c (Proc.devRef .tc main_v32) : Nodes.Idx → EReal)
      = net (agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (final1 (V3 m ρ) c)).trans ?_
  unfold out1
  show conv (W3 m ρ c main_v18) (W3 m ρ c main_v30) (W3 m ρ c main_arg5) (W3 m ρ c main_arg6)
      (fun j => (W3 m ρ c main_v31 : (⟨S1x64, .f32⟩ : BufTy).Contents (Elt Ideal)) (ix2 0 (j 0))) = _
  rw [W3_v18, W3_v30, W3_arg5, W3_arg6, W3_v31,
    W2_of_ne m ρ c main_v1 (by decide), W2_of_ne m ρ c main_v3 (by decide), W2_of_ne m ρ c main_arg5 (by decide),
    W2_of_ne m ρ c main_arg6 (by decide), W2_of_ne m ρ c main_arg7 (by decide),
    W1_v1, W1_v3, W1_arg5, W1_arg6, W1_arg7, hidden, bias_row]
  rfl

end Cert.KernelIdeal.KernelValue
end
-- ==== Proof.RefSide.lean ====
/-
  The reference program is the two-layer network of the specification.

  Its first layer is `x · W1_root + agg x · W1_nbr + b1` followed by `max · 0`; its second layer reads that hidden array and
  the hidden array's own aggregate.  Each host matrix product, read at entry `(p, q)`, is the sum over `k < 64` of the left
  operand's `(p, k)` times the right operand's `(k, q)`; the bias reaches entry `(p, q)` through a `[64] → [1, 64] → [50000, 64]`
  broadcast as `b q`.  The aggregation is the reference's own scatter-add of gathered rows, kept closed.
-/
import proofs.«124685_j13529146982743_2_alg».proof.Proof.Gen.ReferenceIdeal.Read
import proofs.«124685_j13529146982743_2_alg».proof.Proof.Gen.ReferenceIdeal.Run
import proofs.«124685_j13529146982743_2_alg».proof.Proof.Spec

noncomputable section
open scoped BigOperators
namespace Cert.ReferenceIdeal.RefValue
open Cert.ReferenceIdeal Cert.ReferenceIdeal.Gen Cert.ReferenceIdeal.Read Cert.GraphConv
open Idealize.ShloMosaic Idealize.ShloMosaic.TcCoe Idealize.ShloMosaic.ValueIdx

/-- The reference's aggregation over the edge list `e`: the rows of `x` named by the source ends, added into the rows
    named by the target ends of an all-zero array. -/
def agg (e : (⟨S2x800000, .i32⟩ : BufTy).Contents (Elt Ideal)) (x : Nodes.Idx → EReal) : Nodes.Idx → EReal :=
  val_main_v13 (F := Ideal) x e

/-! The operand entries a product's entry `i` reads, by coordinates. -/
theorem l14 (i : S50000x64.Idx) (k : Fin 64) : lidx_main_v14 i k = ix2 (i 0) k := funext fun a => by match a with | ⟨0, _⟩ => rfl | ⟨1, _⟩ => rfl
theorem r14 (i : S50000x64.Idx) (k : Fin 64) : ridx_main_v14 i k = ix2 k (i 1) := funext fun a => by match a with | ⟨0, _⟩ => rfl | ⟨1, _⟩ => rfl
theorem l15 (i : S50000x64.Idx) (k : Fin 64) : lidx_main_v15 i k = ix2 (i 0) k := funext fun a => by match a with | ⟨0, _⟩ => rfl | ⟨1, _⟩ => rfl
theorem r15 (i : S50000x64.Idx) (k : Fin 64) : ridx_main_v15 i k = ix2 k (i 1) := funext fun a => by match a with | ⟨0, _⟩ => rfl | ⟨1, _⟩ => rfl
theorem l31 (i : S50000x64.Idx) (k : Fin 64) : lidx_main_v31 i k = ix2 (i 0) k := funext fun a => by match a with | ⟨0, _⟩ => rfl | ⟨1, _⟩ => rfl
theorem r31 (i : S50000x64.Idx) (k : Fin 64) : ridx_main_v31 i k = ix2 k (i 1) := funext fun a => by match a with | ⟨0, _⟩ => rfl | ⟨1, _⟩ => rfl
theorem l32 (i : S50000x64.Idx) (k : Fin 64) : lidx_main_v32 i k = ix2 (i 0) k := funext fun a => by match a with | ⟨0, _⟩ => rfl | ⟨1, _⟩ => rfl
theorem r32 (i : S50000x64.Idx) (k : Fin 64) : ridx_main_v32 i k = ix2 k (i 1) := funext fun a => by match a with | ⟨0, _⟩ => rfl | ⟨1, _⟩ => rfl
/-- The bias entry that reaches `(p, q)` through the two broadcasts is `b q`. -/
theorem b18 (i : S50000x64.Idx) : idx_main_v17 (idx_main_v18 i) = ix1 (i 1) := funext fun a => by match a with | ⟨0, _⟩ => rfl
theorem b35 (i : S50000x64.Idx) : idx_main_v34 (idx_main_v35 i) = ix1 (i 1) := funext fun a => by match a with | ⟨0, _⟩ => rfl

/-- The first layer before the rectifier. -/
theorem layer1 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v19 (F := Ideal) x0 x1 x2 x3 x4 = conv x0 (agg x1 x0) x2 x3 x4 := by
  funext i
  rw [val_main_v19_apply, val_main_v16_apply, val_main_v14_apply, val_main_v15_apply, val_main_v18_apply, val_main_v17_apply]
  simp only [l14, r14, l15, r15, b18]
  rfl

/-- The hidden array: the first layer, rectified. -/
theorem hidden (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v20 (F := Ideal) x0 x1 x2 x3 x4 = relu (conv x0 (agg x1 x0) x2 x3 x4) := by
  funext i
  rw [val_main_v20_apply, val_main_call0_v0_apply, val_main_call0_cst_apply, layer1]
  show max _ (Ideal.ofBits .f32 0x00000000#32) = max _ 0
  rw [Ideal.ofBits_zero_f32]

/-- The second layer's aggregate is the same aggregation, of the hidden array. -/
theorem agg2 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v30 (F := Ideal) x0 x1 x2 x3 x4 = agg x1 (val_main_v20 (F := Ideal) x0 x1 x2 x3 x4) := rfl

/-- The reference's result is the network. -/
theorem result (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) :
    val_main_v36 (F := Ideal) x0 x1 x2 x3 x4 x5 x6 x7 = net (agg x1) x0 x2 x3 x4 x5 x6 x7 := by
  funext i
  rw [val_main_v36_apply, val_main_v33_apply, val_main_v31_apply, val_main_v32_apply, val_main_v35_apply, val_main_v34_apply]
  simp only [l31, r31, l32, r32, b35, agg2, hidden]
  rfl

end Cert.ReferenceIdeal.RefValue
end
-- ==== Proof.AggSame.lean ====
/-
  The two programs' aggregations are one function.

  Each program takes the edges' source ends (row 0 of the edge list) and target ends (row 1), replaces a negative source
  end `s` by `s + 50000`, gathers the rows of the features named by the source ends and adds them into the rows of an
  all-zero array named by the target ends.  The kernel program widens the gathered rows and narrows the sums, which on
  extended reals changes nothing.  The equality is taken one operand at a time: the dimension numbers, the two index
  arrays, the zero array.
-/
import proofs.«124685_j13529146982743_2_alg».proof.Proof.KernelValue
import proofs.«124685_j13529146982743_2_alg».proof.Proof.RefSide

noncomputable section
namespace Cert.Agree
open Idealize.ShloMosaic Idealize.ShloMosaic.TcCoe Idealize.SL.Sem Cert.GraphConv

/-- On extended reals the two changes of float format around a scatter-add of gathered rows are the identity. -/
theorem strip {s si u : Shape} {w : Nat} (sd : ScatterDims s si u) (z : FVec Ideal s .f32) (idx : IVec si w)
    (g : FVec Ideal u .bf16) (h : FTy.bits .bf16 < FTy.bits .f32) :
    (truncf .bf16 (Host.scatterAdd sd z idx (extf .f32 g h)) h : FVec Ideal s .bf16) = Host.scatterAdd (φ := .f32) sd z idx g := rfl

/-- The gather's dimension numbers are the same record in both programs. -/
theorem gd_same : Cert.KernelIdeal.gather_S50000x64_S800000x1_S800000x64_1_0_n_n_0_1_164 = Cert.ReferenceIdeal.gather_S50000x64_S800000x1_S800000x64_1_0_n_n_0_1_164 := rfl
/-- So are the scatter's. -/
theorem sd_same : Cert.KernelIdeal.scatter_S50000x64_S800000x1_S800000x64_1_0_0_1 = Cert.ReferenceIdeal.scatter_S50000x64_S800000x1_S800000x64_1_0_0_1 := rfl

/-- The source ends. -/
theorem src_same (e : (⟨Cert.KernelIdeal.S2x800000, .i32⟩ : BufTy).Contents (Elt Ideal)) :
    Cert.KernelIdeal.HostValue.srcEnds e = Cert.ReferenceIdeal.Read.val_main_v1 (F := Ideal) e := rfl
/-- The target ends. -/
theorem dst_same (e : (⟨Cert.KernelIdeal.S2x800000, .i32⟩ : BufTy).Contents (Elt Ideal)) :
    Cert.KernelIdeal.HostValue.dstEnds e = Cert.ReferenceIdeal.Read.val_main_v3 (F := Ideal) e := rfl
/-- The all-zero array the sums start from. -/
theorem zero_same : (broadcastInDim Cert.KernelIdeal.S50000x64 ![] Cert.KernelIdeal.Facts₀.bcast_S_S50000x64 (constant (F := Ideal) Cert.KernelIdeal.S_ .f32 0x00000000#32) : FVec Ideal Cert.KernelIdeal.S50000x64 .f32) = Cert.ReferenceIdeal.Read.val_main_v11 (F := Ideal) := rfl
/-- The target ends as a column of scatter indices. -/
theorem dsti_same (e : (⟨Cert.KernelIdeal.S2x800000, .i32⟩ : BufTy).Contents (Elt Ideal)) :
    (broadcastInDim Cert.KernelIdeal.S800000x1 ![0] Cert.KernelIdeal.Facts₀.bcast_S800000_S800000x1_0 (Cert.ReferenceIdeal.Read.val_main_v3 (F := Ideal) e) : (⟨Cert.KernelIdeal.S800000x1, .i32⟩ : BufTy).Contents (Elt Ideal))
      = Cert.ReferenceIdeal.Read.val_main_v12 (F := Ideal) e := rfl
/-- The source ends, negative ones moved up by 50000, as a column of gather indices. -/
theorem srci_same (e : (⟨Cert.KernelIdeal.S2x800000, .i32⟩ : BufTy).Contents (Elt Ideal)) :
    (broadcastInDim Cert.KernelIdeal.S800000x1 ![0] Cert.KernelIdeal.Facts₀.bcast_S800000_S800000x1_0
        (select (cmpi .slt (Cert.ReferenceIdeal.Read.val_main_v1 (F := Ideal) e) (broadcastInDim Cert.KernelIdeal.S800000 ![] Cert.KernelIdeal.Facts₀.bcast_S_S800000 (constantI Cert.KernelIdeal.S_ 32 0#32)))
          (addi (Cert.ReferenceIdeal.Read.val_main_v1 (F := Ideal) e) (broadcastInDim Cert.KernelIdeal.S800000 ![] Cert.KernelIdeal.Facts₀.bcast_S_S800000 (constantI Cert.KernelIdeal.S_ 32 50000#32)))
          (Cert.ReferenceIdeal.Read.val_main_v1 (F := Ideal) e)) : (⟨Cert.KernelIdeal.S800000x1, .i32⟩ : BufTy).Contents (Elt Ideal))
      = Cert.ReferenceIdeal.Read.val_main_v9 (F := Ideal) e := rfl

/-- The aggregation of an array `x` over an edge list `e` is the same in both programs. -/
theorem agg_same (e : (⟨Cert.KernelIdeal.S2x800000, .i32⟩ : BufTy).Contents (Elt Ideal)) :
    Cert.KernelIdeal.KernelValue.agg e = Cert.ReferenceIdeal.RefValue.agg e := by
  funext x
  unfold Cert.KernelIdeal.KernelValue.agg Cert.KernelIdeal.HostValue.aggOf Cert.ReferenceIdeal.RefValue.agg
    Cert.ReferenceIdeal.Read.val_main_v13 Cert.ReferenceIdeal.Read.val_main_v10
  rw [strip, src_same, dst_same, srci_same, dsti_same, zero_same, gd_same, sd_same]

end Cert.Agree
end
-- ==== Proof.lean ====
/-
  The certificate: a two-layer graph convolution computed by two tiled kernels, against its plain reference.

  Both programs aggregate neighbour features with the same two host operations (a gather of the rows named by the edges'
  source ends, a scatter-add into the rows named by the target ends), and both compute each layer as
  `x · W_root + agg · W_nbr + b` in that order of addition, the first layer followed by `max · 0`.  The kernel program
  does each layer in five row blocks of 10000 nodes, which only splits the rows of one whole-array function; its changes of
  float format are the identity on extended reals.  So both results are the specification's `net` of the arguments, and the
  two aggregations are one function.  No law of arithmetic beyond that is used, and the inputs' finiteness is not needed.
  The ideal pass rewrote nothing, so the idealization claim is trivial; the three frames are the generated ones.
-/
import proofs.«124685_j13529146982743_2_alg».proof.Defs
import proofs.«124685_j13529146982743_2_alg».proof.Proof.Gen.Kernel
import proofs.«124685_j13529146982743_2_alg».proof.Proof.Gen.Kernel.Frame
import proofs.«124685_j13529146982743_2_alg».proof.Proof.Gen.KernelIdeal
import proofs.«124685_j13529146982743_2_alg».proof.Proof.Gen.KernelIdeal.Frame
import proofs.«124685_j13529146982743_2_alg».proof.Proof.Gen.ReferenceIdeal
import proofs.«124685_j13529146982743_2_alg».proof.Proof.Gen.ReferenceIdeal.Run
import proofs.«124685_j13529146982743_2_alg».proof.Proof.Gen.ReferenceIdeal.Read
import proofs.«124685_j13529146982743_2_alg».proof.Proof.Gen.Pre_finite_inputs
import proofs.«124685_j13529146982743_2_alg».proof.Proof.KernelRun
import proofs.«124685_j13529146982743_2_alg».proof.Proof.KernelValue
import proofs.«124685_j13529146982743_2_alg».proof.Proof.RefSide
import proofs.«124685_j13529146982743_2_alg».proof.Proof.AggSame
import Idealize.ShloMosaic.Adequacy
import Idealize.ShloMosaic.Init

noncomputable section

namespace Cert.Proof

open Idealize.ShloMosaic Idealize.ShloMosaic.TcCoe Idealize.SL.Sem Cert.GraphConv

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the network of the arguments. -/
theorem algebraic : Cert.algebraic_KernelIdeal_ReferenceIdeal := by
  intro m ρ m' ρ' _ hagree
  refine ⟨fun c => net (Cert.KernelIdeal.KernelValue.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.GenP.run_main m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v36_eq, Cert.ReferenceIdeal.RefValue.result, a0, a1, a2, a3, a4, a5, a6, a7,
      ← Cert.Agree.agg_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
